-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x32x1024 : Shape := ⟨3, ![32, 32, 1024]⟩
abbrev S32x128x2048 : Shape := ⟨3, ![32, 128, 2048]⟩
abbrev S256x1024 : Shape := ⟨2, ![256, 1024]⟩
abbrev S256x2048 : Shape := ⟨2, ![256, 2048]⟩
abbrev S256x256 : Shape := ⟨2, ![256, 256]⟩
abbrev S256 : Shape := ⟨1, ![256]⟩
abbrev S_ : Shape := ⟨0, ![]⟩

class Facts : Prop where
  bcast_S_S32x32x1024 : S_.BroadcastsInDim S32x32x1024 (![] : Fin 0 → Fin S32x32x1024.rank)
  reducesTo_S32x32x1024_S_d0_1_2 : S32x32x1024.ReducesTo [0, 1, 2] S_
  h_S_ : 0 < S_.numel
  bcast_S_S32x128x2048 : S_.BroadcastsInDim S32x128x2048 (![] : Fin 0 → Fin S32x128x2048.rank)
  reducesTo_S32x128x2048_S_d0_1_2 : S32x128x2048.ReducesTo [0, 1, 2] S_
  bcast_S_S256x1024 : S_.BroadcastsInDim S256x1024 (![] : Fin 0 → Fin S256x1024.rank)
  reducesTo_S256x1024_S_d0_1 : S256x1024.ReducesTo [0, 1] S_
  bcast_S_S256x2048 : S_.BroadcastsInDim S256x2048 (![] : Fin 0 → Fin S256x2048.rank)
  reducesTo_S256x2048_S_d0_1 : S256x2048.ReducesTo [0, 1] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg4 : FVec F S256x256 .f32) (main_arg5 : FVec F S256 .f32) (main_v13 : IVec S_ 1) (main_v16 : IVec S256x2048 1) : IVec S_ 1 :=
  let main_c_5 : IVec S_ 1 := constantI S_ 1 1#1
  let main_v17 : IVec S_ 1 := (fun x v => Host.reduce IntOp.andi x v reducesTo_S256x2048_S_d0_1 h_S_) main_v16 main_c_5
  let main_v18 : IVec S_ 1 := andi main_v13 main_v17
  let main_v19 : FVec F S256x256 .f32 := Host.absf main_arg4
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  main_v28

def fn {F : FTy → Type} [FloatOps F] (main_arg0 : FVec F S32x32x1024 .f32) (main_arg1 : FVec F S32x128x2048 .f32) (main_arg2 : FVec F S256x1024 .f32) (main_arg3 : FVec F S256x2048 .f32) (main_arg4 : FVec F S256x256 .f32) (main_arg5 : FVec F S256 .f32) : IVec S_ 1 :=
  let main_v0 : FVec F S32x32x1024 .f32 := Host.absf main_arg0
  let main_cst : FVec F S_ .f32 := constant S_ .f32 0x7F800000#32
  let main_v1 : FVec F S32x32x1024 .f32 := broadcastInDim S32x32x1024 ![] bcast_S_S32x32x1024 main_cst
  let main_v2 : IVec S32x32x1024 1 := cmpf .olt main_v0 main_v1
  let main_c : IVec S_ 1 := constantI S_ 1 1#1
  let main_v3 : IVec S_ 1 := (fun x v => Host.reduce IntOp.andi x v reducesTo_S32x32x1024_S_d0_1_2 h_S_) main_v2 main_c
  let main_v4 : FVec F S32x128x2048 .f32 := Host.absf main_arg1
  let main_cst_0 : FVec F S_ .f32 := constant S_ .f32 0x7F800000#32
  let main_v5 : FVec F S32x128x2048 .f32 := broadcastInDim S32x128x2048 ![] bcast_S_S32x128x2048 main_cst_0
  let main_v6 : IVec S32x128x2048 1 := cmpf .olt main_v4 main_v5
  let main_c_1 : IVec S_ 1 := constantI S_ 1 1#1
  let main_v7 : IVec S_ 1 := (fun x v => Host.reduce IntOp.andi x v reducesTo_S32x128x2048_S_d0_1_2 h_S_) main_v6 main_c_1
  let main_v8 : IVec S_ 1 := andi main_v3 main_v7
  let main_v9 : FVec F S256x1024 .f32 := Host.absf main_arg2
  let main_cst_2 : FVec F S_ .f32 := constant S_ .f32 0x7F800000#32
  let main_v10 : FVec F S256x1024 .f32 := broadcastInDim S256x1024 ![] bcast_S_S256x1024 main_cst_2
  let main_v11 : IVec S256x1024 1 := cmpf .olt main_v9 main_v10
  let main_c_3 : IVec S_ 1 := constantI S_ 1 1#1
  let main_v12 : IVec S_ 1 := (fun x v => Host.reduce IntOp.andi x v reducesTo_S256x1024_S_d0_1 h_S_) main_v11 main_c_3
  let main_v13 : IVec S_ 1 := andi main_v8 main_v12
  let main_v14 : FVec F S256x2048 .f32 := Host.absf main_arg3
  let main_cst_4 : FVec F S_ .f32 := constant S_ .f32 0x7F800000#32
  let main_v15 : FVec F S256x2048 .f32 := broadcastInDim S256x2048 ![] bcast_S_S256x2048 main_cst_4
  let main_v16 : IVec S256x2048 1 := cmpf .olt main_v14 main_v15
  fn_part1 (F := F) main_arg4 main_arg5 main_v13 main_v16
-- ==== Kernel.lean ====
abbrev S32x32x1024 : Shape := ⟨3, ![32, 32, 1024]⟩
abbrev S32x128x2048 : Shape := ⟨3, ![32, 128, 2048]⟩
abbrev S256x1024 : Shape := ⟨2, ![256, 1024]⟩
abbrev S256x2048 : Shape := ⟨2, ![256, 2048]⟩
abbrev S256x256 : Shape := ⟨2, ![256, 256]⟩
abbrev S256 : Shape := ⟨1, ![256]⟩
abbrev S1x256 : Shape := ⟨2, ![1, 256]⟩
abbrev S32x32x128x256 : Shape := ⟨4, ![32, 32, 128, 256]⟩
abbrev S1x32x1024 : Shape := ⟨3, ![1, 32, 1024]⟩
abbrev S1x128x2048 : Shape := ⟨3, ![1, 128, 2048]⟩
abbrev S1x32x128x256 : Shape := ⟨4, ![1, 32, 128, 256]⟩
abbrev S32x1024 : Shape := ⟨2, ![32, 1024]⟩
abbrev S128x2048 : Shape := ⟨2, ![128, 2048]⟩
abbrev S32x256 : Shape := ⟨2, ![32, 256]⟩
abbrev S128x256 : Shape := ⟨2, ![128, 256]⟩
abbrev S8x256 : Shape := ⟨2, ![8, 256]⟩
abbrev S8x1x256 : Shape := ⟨3, ![8, 1, 256]⟩
abbrev S1x128x256 : Shape := ⟨3, ![1, 128, 256]⟩
abbrev S8x128x256 : Shape := ⟨3, ![8, 128, 256]⟩
abbrev S1024x256 : Shape := ⟨2, ![1024, 256]⟩
abbrev S1x8x128x256 : Shape := ⟨4, ![1, 8, 128, 256]⟩

abbrev nBuf : Space → Nat
  | .hbm => 11
  | .vmem => 10
  | .smem => 0
  | _ => 0

abbrev bufTy : (tb : Table) → Fin (tcTables nBuf tb) → BufTy
  | .hbm, ⟨0, _⟩ => ⟨S32x32x1024, .f32⟩
  | .hbm, ⟨1, _⟩ => ⟨S32x128x2048, .f32⟩
  | .hbm, ⟨2, _⟩ => ⟨S256x1024, .f32⟩
  | .hbm, ⟨3, _⟩ => ⟨S256x2048, .f32⟩
  | .hbm, ⟨4, _⟩ => ⟨S256x256, .f32⟩
  | .hbm, ⟨5, _⟩ => ⟨S256, .f32⟩
  | .hbm, ⟨6, _⟩ => ⟨S256x1024, .bf16⟩
  | .hbm, ⟨7, _⟩ => ⟨S256x2048, .bf16⟩
  | .hbm, ⟨8, _⟩ => ⟨S256x256, .bf16⟩
  | .hbm, ⟨9, _⟩ => ⟨S1x256, .f32⟩
  | .hbm, ⟨10, _⟩ => ⟨S32x32x128x256, .f32⟩
  | .local _ .vmem, ⟨0, _⟩ => ⟨S1x32x1024, .f32⟩
  | .local _ .vmem, ⟨1, _⟩ => ⟨S1x32x1024, .f32⟩
  | .local _ .vmem, ⟨2, _⟩ => ⟨S1x128x2048, .f32⟩
  | .local _ .vmem, ⟨3, _⟩ => ⟨S1x128x2048, .f32⟩
  | .local _ .vmem, ⟨4, _⟩ => ⟨S256x1024, .bf16⟩
  | .local _ .vmem, ⟨5, _⟩ => ⟨S256x2048, .bf16⟩
  | .local _ .vmem, ⟨6, _⟩ => ⟨S256x256, .bf16⟩
  | .local _ .vmem, ⟨7, _⟩ => ⟨S1x256, .f32⟩
  | .local _ .vmem, ⟨8, _⟩ => ⟨S1x32x128x256, .f32⟩
  | .local _ .vmem, ⟨9, _⟩ => ⟨S1x32x128x256, .f32⟩
  | _, _ => ⟨S32x32x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x32x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x32x128x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  bitsLt_bf16_f32 : FTy.bits .bf16 < FTy.bits .f32
  shapeCasts_S256_S1x256 : S256.ShapeCasts S1x256
  inb_S1x32x1024_S1x32x1024_0_0_0 : ∀ a, (![0, 0, 0] : Fin 3 → Nat) a + S1x32x1024.size a ≤ S1x32x1024.size a
  h_S1x32x1024 : 0 < S1x32x1024.numel
  shapeCasts_S1x32x1024_S32x1024 : S1x32x1024.ShapeCasts S32x1024
  inb_S1x128x2048_S1x128x2048_0_0_0 : ∀ a, (![0, 0, 0] : Fin 3 → Nat) a + S1x128x2048.size a ≤ S1x128x2048.size a
  h_S1x128x2048 : 0 < S1x128x2048.numel
  shapeCasts_S1x128x2048_S128x2048 : S1x128x2048.ShapeCasts S128x2048
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S256x2048_S256x2048_0_0 : ∀ a, (![0, 0] : Fin 2 → Nat) a + S256x2048.size a ≤ S256x2048.size a
  h_S256x2048 : 0 < S256x2048.numel
  shapeCasts_S256x2048_S256x2048 : S256x2048.ShapeCasts S256x2048
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  slices_S32x256_o0_0_S8x256 : S32x256.Slices ![0, 0] S8x256
  shapeCasts_S8x256_S8x1x256 : S8x256.ShapeCasts S8x1x256
  shapeCasts_S128x256_S1x128x256 : S128x256.ShapeCasts S1x128x256
  broadcasts_S8x1x256_S8x128x256 : S8x1x256.Broadcasts S8x128x256
  broadcasts_S1x128x256_S8x128x256 : S1x128x256.Broadcasts S8x128x256
  shapeCasts_S8x128x256_S1024x256 : S8x128x256.ShapeCasts S1024x256
  broadcasts_S1x256_S1024x256 : S1x256.Broadcasts S1024x256
  shapeCasts_S1024x256_S8x128x256 : S1024x256.ShapeCasts S8x128x256
  inb_S1x32x128x256_S1x8x128x256_0_0_0_0 : ∀ a, (![0, 0, 0, 0] : Fin 4 → Nat) a + S1x8x128x256.size a ≤ S1x32x128x256.size a
  h_S1x8x128x256 : 0 < S1x8x128x256.numel
  shapeCasts_S1x8x128x256_S8x128x256 : S1x8x128x256.ShapeCasts S8x128x256
  shapeCasts_S8x128x256_S1x8x128x256 : S8x128x256.ShapeCasts S1x8x128x256
  slices_S32x256_o8_0_S8x256 : S32x256.Slices ![8, 0] S8x256
  inb_S1x32x128x256_S1x8x128x256_0_8_0_0 : ∀ a, (![0, 8, 0, 0] : Fin 4 → Nat) a + S1x8x128x256.size a ≤ S1x32x128x256.size a
  slices_S32x256_o16_0_S8x256 : S32x256.Slices ![16, 0] S8x256
  inb_S1x32x128x256_S1x8x128x256_0_16_0_0 : ∀ a, (![0, 16, 0, 0] : Fin 4 → Nat) a + S1x8x128x256.size a ≤ S1x32x128x256.size a
  slices_S32x256_o24_0_S8x256 : S32x256.Slices ![24, 0] S8x256
  inb_S1x32x128x256_S1x8x128x256_0_24_0_0 : ∀ a, (![0, 24, 0, 0] : Fin 4 → Nat) a + S1x8x128x256.size a ≤ S1x32x128x256.size a
  dot_S32x1024_S256x1024_S32x256_1_1_0_0_n_n_wf : DotDims.WF S32x1024 S256x1024 S32x256 [1] [1] [0] [0] [] []
  dot_S128x2048_S256x2048_S128x256_1_1_0_0_n_n_wf : DotDims.WF S128x2048 S256x2048 S128x256 [1] [1] [0] [0] [] []
  dot_S1024x256_S256x256_S1024x256_1_1_0_0_n_n_wf : DotDims.WF S1024x256 S256x256 S1024x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x32x1024.size a ≤ S32x32x1024.size a
  hwx0_0 : ∀ i : grid0.Coords, EltTy.bits .f32 = 32 ∨ (Rect.block (s := S32x32x1024) S1x32x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128x2048.size a ≤ S32x128x2048.size a
  hwx0_1 : ∀ i : grid0.Coords, EltTy.bits .f32 = 32 ∨ (Rect.block (s := S32x128x2048) S1x128x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S256x1024.size a
  hwx0_2 : ∀ i : grid0.Coords, EltTy.bits .bf16 = 32 ∨ (Rect.block (s := S256x1024) S256x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x2048.size a ≤ S256x2048.size a
  hwx0_3 : ∀ i : grid0.Coords, EltTy.bits .bf16 = 32 ∨ (Rect.block (s := S256x2048) S256x2048.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x256.size a ≤ S256x256.size a
  hwx0_4 : ∀ i : grid0.Coords, EltTy.bits .bf16 = 32 ∨ (Rect.block (s := S256x256) S256x256.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x32x128x256.size a ≤ S32x32x128x256.size a
  hwx0_6 : ∀ i : grid0.Coords, EltTy.bits .f32 = 32 ∨ (Rect.block (s := S32x32x128x256) S1x32x128x256.size (cc0_transform_6 i) (hinb0_6 i)).WholeWords (EltTy.packing .f32)

variable [Facts₀]

def dot_S32x1024_S256x1024_S32x256_1_1_0_0_n_n : DotDims S32x1024 S256x1024 S32x256 where
  lhsContracting := [1]
  rhsContracting := [1]
  lhsNonContracting := [0]
  rhsNonContracting := [0]
  lhsBatch := []
  rhsBatch := []
  wf := dot_S32x1024_S256x1024_S32x256_1_1_0_0_n_n_wf
def dot_S128x2048_S256x2048_S128x256_1_1_0_0_n_n : DotDims S128x2048 S256x2048 S128x256 where
  lhsContracting := [1]
  rhsContracting := [1]
  lhsNonContracting := [0]
  rhsNonContracting := [0]
  lhsBatch := []
  rhsBatch := []
  wf := dot_S128x2048_S256x2048_S128x256_1_1_0_0_n_n_wf
def dot_S1024x256_S256x256_S1024x256_1_1_0_0_n_n : DotDims S1024x256 S256x256 S1024x256 where
  lhsContracting := [1]
  rhsContracting := [1]
  lhsNonContracting := [0]
  rhsNonContracting := [0]
  lhsBatch := []
  rhsBatch := []
  wf := dot_S1024x256_S256x256_S1024x256_1_1_0_0_n_n_wf

abbrev win0_0 : Pipeline.Window sig grid0 :=
  Pipeline.Window.ofSpec (Memref.whole main_arg0) S1x32x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x128x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S256x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S256x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S256x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S1x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v4) S1x32x128x256.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S32x32x1024 : Shape := ⟨3, ![32, 32, 1024]⟩
abbrev S32x128x2048 : Shape := ⟨3, ![32, 128, 2048]⟩
abbrev S256x1024 : Shape := ⟨2, ![256, 1024]⟩
abbrev S256x2048 : Shape := ⟨2, ![256, 2048]⟩
abbrev S256x256 : Shape := ⟨2, ![256, 256]⟩
abbrev S256 : Shape := ⟨1, ![256]⟩
abbrev S32x32x256 : Shape := ⟨3, ![32, 32, 256]⟩
abbrev S32x128x256 : Shape := ⟨3, ![32, 128, 256]⟩
abbrev S32x32x1x256 : Shape := ⟨4, ![32, 32, 1, 256]⟩
abbrev S32x1x128x256 : Shape := ⟨4, ![32, 1, 128, 256]⟩
abbrev S32x32x128x256 : Shape := ⟨4, ![32, 32, 128, 256]⟩
abbrev S1x1x1x256 : Shape := ⟨4, ![1, 1, 1, 256]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S32x32x1024, .f32⟩
  | .hbm, ⟨1, _⟩ => ⟨S32x128x2048, .f32⟩
  | .hbm, ⟨2, _⟩ => ⟨S256x1024, .f32⟩
  | .hbm, ⟨3, _⟩ => ⟨S256x2048, .f32⟩
  | .hbm, ⟨4, _⟩ => ⟨S256x256, .f32⟩
  | .hbm, ⟨5, _⟩ => ⟨S256, .f32⟩
  | .hbm, ⟨6, _⟩ => ⟨S32x32x256, .f32⟩
  | .hbm, ⟨7, _⟩ => ⟨S32x128x256, .f32⟩
  | .hbm, ⟨8, _⟩ => ⟨S32x32x1x256, .f32⟩
  | .hbm, ⟨9, _⟩ => ⟨S32x1x128x256, .f32⟩
  | .hbm, ⟨10, _⟩ => ⟨S32x32x128x256, .f32⟩
  | .hbm, ⟨11, _⟩ => ⟨S32x32x128x256, .f32⟩
  | .hbm, ⟨12, _⟩ => ⟨S32x32x128x256, .f32⟩
  | .hbm, ⟨13, _⟩ => ⟨S32x32x128x256, .f32⟩
  | .hbm, ⟨14, _⟩ => ⟨S1x1x1x256, .f32⟩
  | .hbm, ⟨15, _⟩ => ⟨S32x32x128x256, .f32⟩
  | .hbm, ⟨16, _⟩ => ⟨S32x32x128x256, .f32⟩
  | .hbm, ⟨17, _⟩ => ⟨S_, .f32⟩
  | .hbm, ⟨18, _⟩ => ⟨S32x32x128x256, .f32⟩
  | .hbm, ⟨19, _⟩ => ⟨S32x32x128x256, .f32⟩
  | _, _ => ⟨S32x32x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_call0_cst : Ref sig .tc := ⟨.hbm, 17, rfl⟩
abbrev main_call0_v0 : Ref sig .tc := ⟨.hbm, 18, rfl⟩
abbrev main_v11 : Ref sig .tc := ⟨.hbm, 19, rfl⟩

abbrev nD : Nat := 1
abbrev τ : Topo := Topo.v7x

variable {F : FTy → Type} [FloatOps F]

class Facts₀ : Prop where
  bcast_S32x32x256_S32x32x1x256_0_1_3 : S32x32x256.BroadcastsInDim S32x32x1x256 (![0, 1, 3] : Fin 3 → Fin S32x32x1x256.rank)
  bcast_S32x128x256_S32x1x128x256_0_2_3 : S32x128x256.BroadcastsInDim S32x1x128x256 (![0, 2, 3] : Fin 3 → Fin S32x1x128x256.rank)
  bcast_S32x32x1x256_S32x32x128x256_0_1_2_3 : S32x32x1x256.BroadcastsInDim S32x32x128x256 (![0, 1, 2, 3] : Fin 4 → Fin S32x32x128x256.rank)
  bcast_S32x1x128x256_S32x32x128x256_0_1_2_3 : S32x1x128x256.BroadcastsInDim S32x32x128x256 (![0, 1, 2, 3] : Fin 4 → Fin S32x32x128x256.rank)
  bcast_S256_S1x1x1x256_3 : S256.BroadcastsInDim S1x1x1x256 (![3] : Fin 1 → Fin S1x1x1x256.rank)
  bcast_S1x1x1x256_S32x32x128x256_0_1_2_3 : S1x1x1x256.BroadcastsInDim S32x32x128x256 (![0, 1, 2, 3] : Fin 4 → Fin S32x32x128x256.rank)
  bcast_S_S32x32x128x256 : S_.BroadcastsInDim S32x32x128x256 (![] : Fin 0 → Fin S32x32x128x256.rank)
  dot_S32x32x1024_S256x1024_S32x32x256_2_1_01_0_n_n_wf : DotDims.WF S32x32x1024 S256x1024 S32x32x256 [2] [1] [0, 1] [0] [] []
  dot_S32x128x2048_S256x2048_S32x128x256_2_1_01_0_n_n_wf : DotDims.WF S32x128x2048 S256x2048 S32x128x256 [2] [1] [0, 1] [0] [] []
  dot_S32x32x128x256_S256x256_S32x32x128x256_3_1_012_0_n_n_wf : DotDims.WF S32x32x128x256 S256x256 S32x32x128x256 [3] [1] [0, 1, 2] [0] [] []

variable [Facts₀]

def dot_S32x32x1024_S256x1024_S32x32x256_2_1_01_0_n_n : DotDims S32x32x1024 S256x1024 S32x32x256 where
  lhsContracting := [2]
  rhsContracting := [1]
  lhsNonContracting := [0, 1]
  rhsNonContracting := [0]
  lhsBatch := []
  rhsBatch := []
  wf := dot_S32x32x1024_S256x1024_S32x32x256_2_1_01_0_n_n_wf
def dot_S32x128x2048_S256x2048_S32x128x256_2_1_01_0_n_n : DotDims S32x128x2048 S256x2048 S32x128x256 where
  lhsContracting := [2]
  rhsContracting := [1]
  lhsNonContracting := [0, 1]
  rhsNonContracting := [0]
  lhsBatch := []
  rhsBatch := []
  wf := dot_S32x128x2048_S256x2048_S32x128x256_2_1_01_0_n_n_wf
def dot_S32x32x128x256_S256x256_S32x32x128x256_3_1_012_0_n_n : DotDims S32x32x128x256 S256x256 S32x32x128x256 where
  lhsContracting := [3]
  rhsContracting := [1]
  lhsNonContracting := [0, 1, 2]
  rhsNonContracting := [0]
  lhsBatch := []
  rhsBatch := []
  wf := dot_S32x32x128x256_S256x256_S32x32x128x256_3_1_012_0_n_n_wf

class Facts : Prop extends Facts₀ where

variable [Facts]
-- ==== Proof.LibMatmulNT.lean ====
/-
  A matrix product against a transposed right factor, read at an index at the exact extended reals: a general lemma.

  With dimension numbers that contract axis 1 of an `[M, K]` left factor with axis 1 of an `[N, K]` right factor (no
  batch axes; the result `[M, N]`), and a zero accumulator, entry `(p, q)` of the product is the sum over `e` of
  `lhs (p, e) * rhs (q, e)`: row `p` of the left factor against row `q` of the right one.
-/
import Idealize.ShloMosaic.PureOps.Ideal
import Idealize.ShloMosaic.PureOps.Ideal.Laws
import Idealize.ShloMosaic.Lib.ValueIdx

noncomputable section

namespace Cert.LibMatmulNT

open Idealize.ShloMosaic Idealize.ShloMosaic.ValueIdx

variable {M N K : ℕ}

/-- The dimension numbers "rows against rows": contract axis 1 with axis 1, keep axis 0 of each factor, no batch. -/
abbrev dims (wf : DotDims.WF (⟨2, ![M, K]⟩ : Shape) (⟨2, ![N, K]⟩ : Shape) (⟨2, ![M, N]⟩ : Shape) [1] [1] [0] [0] [] []) :
    DotDims (⟨2, ![M, K]⟩ : Shape) (⟨2, ![N, K]⟩ : Shape) (⟨2, ![M, N]⟩ : Shape) where
  lhsContracting := [1]
  rhsContracting := [1]
  lhsNonContracting := [0]
  rhsNonContracting := [0]
  lhsBatch := []
  rhsBatch := []
  wf := wf

variable (wf : DotDims.WF (⟨2, ![M, K]⟩ : Shape) (⟨2, ![N, K]⟩ : Shape) (⟨2, ![M, N]⟩ : Shape) [1] [1] [0] [0] [] [])

/-- The left index keeps the result's row coordinate on its own row axis. -/
theorem lhsIdx_row (j : (⟨2, ![M, N]⟩ : Shape).Idx) (k : (dims wf).contr.Idx) :
    ((dims wf).lhsIdx j k 0).val = (j 0).val := by
  unfold DotDims.lhsIdx
  rw [dif_neg (show ¬(0 : Fin (⟨2, ![M, K]⟩ : Shape).rank) ∈ (dims wf).lhsBatch from List.not_mem_nil),
    dif_pos (show (0 : Fin (⟨2, ![M, K]⟩ : Shape).rank) ∈ (dims wf).lhsNonContracting from List.mem_singleton.mpr rfl)]
  rfl

/-- The right index puts the result's column coordinate on its own row axis. -/
theorem rhsIdx_row (j : (⟨2, ![M, N]⟩ : Shape).Idx) (k : (dims wf).contr.Idx) :
    ((dims wf).rhsIdx j k 0).val = (j 1).val := by
  unfold DotDims.rhsIdx
  rw [dif_neg (show ¬(0 : Fin (⟨2, ![N, K]⟩ : Shape).rank) ∈ (dims wf).rhsBatch from List.not_mem_nil),
    dif_pos (show (0 : Fin (⟨2, ![N, K]⟩ : Shape).rank) ∈ (dims wf).rhsNonContracting from List.mem_singleton.mpr rfl)]
  rfl

/-- The left index at result `(p, q)` and contraction position `e` is `(p, e)`. -/
theorem lhsIdx_eq (p : Fin M) (q : Fin N) (e : Fin K) :
    (dims wf).lhsIdx (ix2 p q) ((contrEquiv1 (dims wf) K rfl rfl).symm e) = ix2 p e := by
  have he := contrEquiv1_symm_val (dims wf) K rfl rfl e
  funext a
  apply Fin.ext
  match a with
  | ⟨0, _⟩ => exact lhsIdx_row wf _ _
  | ⟨1, _⟩ => exact ((dims wf).lhsIdx_val_of_single rfl _ _).trans he

/-- The right index at result `(p, q)` and contraction position `e` is `(q, e)`. -/
theorem rhsIdx_eq (p : Fin M) (q : Fin N) (e : Fin K) :
    (dims wf).rhsIdx (ix2 p q) ((contrEquiv1 (dims wf) K rfl rfl).symm e) = ix2 q e := by
  have he := contrEquiv1_symm_val (dims wf) K rfl rfl e
  funext a
  apply Fin.ext
  match a with
  | ⟨0, _⟩ => exact rhsIdx_row wf _ _
  | ⟨1, _⟩ => exact ((dims wf).rhsIdx_val_of_single rfl _ _).trans he

/-- Entry `(p, q)` of the product into a zero accumulator: row `p` of `lhs` against row `q` of `rhs`. -/
theorem matmul_zero_apply {φ₁ φ₂ : FTy} (prec : Option ContractPrecision)
    (lhs : FVec Ideal (⟨2, ![M, K]⟩ : Shape) φ₁) (rhs : FVec Ideal (⟨2, ![N, K]⟩ : Shape) φ₂) (p : Fin M) (q : Fin N) :
    FloatOps.matmul (dims wf) prec lhs rhs (constant (F := Ideal) (⟨2, ![M, N]⟩ : Shape) .f32 0x00000000#32) (ix2 p q)
      = ∑ e : Fin K, lhs (ix2 p e) * rhs (ix2 q e) := by
  rw [Ideal.matmul_constant_zero_apply, ← Equiv.sum_comp (contrEquiv1 (dims wf) K rfl rfl).symm]
  refine Finset.sum_congr rfl fun e _ => ?_
  rw [lhsIdx_eq wf p q e, rhsIdx_eq wf p q e]

end Cert.LibMatmulNT

end
-- ==== Proof.LibRowAxis.lean ====
/-
  A unit axis in the middle of a rank-3 shape, read at an index: general layout lemmas.

  A matrix `[a, d]` viewed as `[a, 1, d]` keeps its row-major order, so entry `(p, 0, r)` of the view is entry `(p, r)`
  of the matrix; and an `[a, 1, d]` array broadcast along its middle axis to `[a, b, d]` repeats row `p` for every
  middle coordinate, so entry `(p, q, r)` of the broadcast is entry `(p, 0, r)` of the operand.
-/
import Idealize.ShloMosaic.Lib.Pipeline.Value
import Idealize.ShloMosaic.Lib.ValueIdx

namespace Cert.LibRowAxis

open Idealize.ShloMosaic Idealize.ShloMosaic.ValueIdx

variable {α : Type}

/-- `[a, d]` viewed `[a, 1, d]`: entry `(p, z, r)` (with `z` the only coordinate of the unit axis) is entry `(p, r)`. -/
theorem shapeCast_ad_a1d_apply {a d : ℕ} (x : (⟨2, ![a, d]⟩ : Shape).Idx → α)
    (h : (⟨2, ![a, d]⟩ : Shape).ShapeCasts ⟨3, ![a, 1, d]⟩) (p : Fin a) (z : Fin 1) (r : Fin d) :
    shapeCast ⟨3, ![a, 1, d]⟩ x h (ix3 p z r) = x (ix2 p r) := by
  refine shapeCast_apply x h _ _ ?_
  rw [Shape.rowMajor_val_two, Shape.rowMajor_val_three]
  show p.val * d + r.val = (p.val * 1 + z.val) * d + r.val
  have hz : z.val = 0 := by have := z.isLt; omega
  rw [hz, Nat.mul_one, Nat.add_zero]

/-- `[a, 1, d]` broadcast along the middle axis to `[a, b, d]`: entry `(p, q, r)` is entry `(p, 0, r)`. -/
theorem broadcastTo_a1d_abd_apply {a b d : ℕ} (x : (⟨3, ![a, 1, d]⟩ : Shape).Idx → α)
    (h : (⟨3, ![a, 1, d]⟩ : Shape).Broadcasts ⟨3, ![a, b, d]⟩) (p : Fin a) (q : Fin b) (r : Fin d) :
    broadcastTo ⟨3, ![a, b, d]⟩ x h (ix3 p q r) = x (ix3 p ⟨0, Nat.one_pos⟩ r) := by
  refine broadcastTo_apply x h _ _ fun ax => ?_
  match ax with
  | ⟨0, _⟩ =>
    show p.val = if a = 1 then 0 else p.val
    split_ifs with h1
    · have := p.isLt; omega
    · rfl
  | ⟨1, _⟩ =>
    show (0 : ℕ) = if (1 : ℕ) = 1 then 0 else q.val
    rw [if_pos rfl]
  | ⟨2, _⟩ =>
    show r.val = if d = 1 then 0 else r.val
    split_ifs with h1
    · have := r.isLt; omega
    · rfl

end Cert.LibRowAxis
-- ==== Proof.LibGroupsToRows.lean ====
/-
  Groups of rows flattened: a general layout lemma, the converse of the row-block cast. An `[a, b, d]` array viewed as
  the matrix `[n, d]` of its `n = a * b` rows keeps the row-major order, so row `p * b + q` of the matrix is row `q` of
  group `p`.
-/
import Idealize.ShloMosaic.Lib.Pipeline.Value
import Idealize.ShloMosaic.Lib.ValueIdx

namespace Cert.Layout

open Idealize.ShloMosaic Idealize.ShloMosaic.ValueIdx

/-- An `[a, b, d]` array viewed `[n, d]` (so `n = a * b`) reads, at row `p * b + q` and column `r`, the operand's entry
    `(p, q, r)`. -/
theorem shapeCast_groups_rows_apply {α : Type} {n a b d : ℕ} (x : (⟨3, ![a, b, d]⟩ : Shape).Idx → α)
    (h : (⟨3, ![a, b, d]⟩ : Shape).ShapeCasts ⟨2, ![n, d]⟩) (p : Fin a) (q : Fin b) (r : Fin d)
    (hpq : p.val * b + q.val < n) :
    shapeCast ⟨2, ![n, d]⟩ x h (ix2 ⟨p.val * b + q.val, hpq⟩ r) = x (ix3 p q r) := by
  refine shapeCast_apply x h _ _ ?_
  rw [Shape.rowMajor_val_two, Shape.rowMajor_val_three]
  rfl

end Cert.Layout
-- ==== Proof.LibRank3Layout.lean ====
/-
  Rank-3 layout operations and lane reductions read at an index, over literal-size index constructors.

  A flat array of `a * b` rows viewed as `a` groups of `b` rows; the keep-dimension cast that appends a unit axis; the
  broadcast of that unit axis along the lanes; the broadcast of a leading unit axis over the groups; and, at the
  exact extended reals, the lane sum and the lane maximum of a rank-3 array and the row sum of a rank-2 array, each
  as a sum or a fold over `Fin` of the operand at the index with the reduced coordinate inserted.
-/
import Idealize.ShloMosaic.PureOps.Ideal
import Idealize.ShloMosaic.PureOps.Ideal.Laws
import Idealize.ShloMosaic.Lib.ValueIdx
import Idealize.ShloMosaic.Lib.Pipeline.Value

noncomputable section

namespace Cert.LibRank3

open Idealize.ShloMosaic Idealize.ShloMosaic.ValueIdx

variable {α : Type}

/-- `[n, d]` viewed `[a, b, d]` (so `n = a * b`): entry `(p, q, r)` is row `p * b + q`, column `r`. -/
theorem shapeCast_rows_apply {n a b d : ℕ} (x : (⟨2, ![n, d]⟩ : Shape).Idx → α)
    (h : (⟨2, ![n, d]⟩ : Shape).ShapeCasts ⟨3, ![a, b, d]⟩) (p : Fin a) (q : Fin b) (r : Fin d)
    (hpq : p.val * b + q.val < n) :
    shapeCast ⟨3, ![a, b, d]⟩ x h (ix3 p q r) = x (ix2 ⟨p.val * b + q.val, hpq⟩ r) := by
  refine shapeCast_apply x h _ _ ?_
  rw [Shape.rowMajor_val_two, Shape.rowMajor_val_three]
  rfl

/-- `[a, b]` viewed `[a, b, 1]`: entry `(p, q, 0)` is entry `(p, q)`. -/
theorem shapeCast_keepdim_apply {a b : ℕ} (x : (⟨2, ![a, b]⟩ : Shape).Idx → α)
    (h : (⟨2, ![a, b]⟩ : Shape).ShapeCasts ⟨3, ![a, b, 1]⟩) (p : Fin a) (q : Fin b) (z : Fin 1) :
    shapeCast ⟨3, ![a, b, 1]⟩ x h (ix3 p q z) = x (ix2 p q) := by
  refine shapeCast_apply x h _ _ ?_
  rw [Shape.rowMajor_val_two, Shape.rowMajor_val_three]
  show p.val * b + q.val = (p.val * b + q.val) * 1 + z.val
  have := z.isLt
  omega

/-- `[a, b, 1]` broadcast along the lanes to `[a, b, c]`: entry `(p, q, r)` is entry `(p, q, 0)`. -/
theorem broadcastTo_lane_apply {a b c : ℕ} (x : (⟨3, ![a, b, 1]⟩ : Shape).Idx → α)
    (h : (⟨3, ![a, b, 1]⟩ : Shape).Broadcasts ⟨3, ![a, b, c]⟩) (p : Fin a) (q : Fin b) (r : Fin c) :
    broadcastTo ⟨3, ![a, b, c]⟩ x h (ix3 p q r) = x (ix3 p q ⟨0, Nat.one_pos⟩) := by
  refine broadcastTo_apply x h _ _ fun d => ?_
  match d with
  | ⟨0, _⟩ =>
    show p.val = if a = 1 then 0 else p.val
    split_ifs with h1
    · have := p.isLt; omega
    · rfl
  | ⟨1, _⟩ =>
    show q.val = if b = 1 then 0 else q.val
    split_ifs with h1
    · have := q.isLt; omega
    · rfl
  | ⟨2, _⟩ =>
    show (0 : ℕ) = if (1 : ℕ) = 1 then 0 else r.val
    rw [if_pos rfl]

/-- `[1, b, c]` broadcast over the groups to `[a, b, c]`: entry `(p, q, r)` is entry `(0, q, r)`. -/
theorem broadcastTo_group_apply {a b c : ℕ} (x : (⟨3, ![1, b, c]⟩ : Shape).Idx → α)
    (h : (⟨3, ![1, b, c]⟩ : Shape).Broadcasts ⟨3, ![a, b, c]⟩) (p : Fin a) (q : Fin b) (r : Fin c) :
    broadcastTo ⟨3, ![a, b, c]⟩ x h (ix3 p q r) = x (ix3 ⟨0, Nat.one_pos⟩ q r) := by
  refine broadcastTo_apply x h _ _ fun d => ?_
  match d with
  | ⟨0, _⟩ =>
    show (0 : ℕ) = if (1 : ℕ) = 1 then 0 else p.val
    rw [if_pos rfl]
  | ⟨1, _⟩ =>
    show q.val = if b = 1 then 0 else q.val
    split_ifs with h1
    · have := q.isLt; omega
    · rfl
  | ⟨2, _⟩ =>
    show r.val = if c = 1 then 0 else r.val
    split_ifs with h1
    · have := r.isLt; omega
    · rfl

/-- The lane sum of a rank-3 array at the exact extended reals: at `(p, q)` the sum over `k` of entry `(p, q, k)`. -/
theorem sum_lane_apply {a b c : ℕ} (src : FVec Ideal ⟨3, ![a, b, c]⟩ .f32) (acc : BitVec 32)
    (h : (⟨3, ![a, b, c]⟩ : Shape).Reduces [2] ⟨2, ![a, b]⟩) (hφ : FKind.Formats .f32)
    (hacc : acc = FKind.add.neutral .f32 hφ) (p : Fin a) (q : Fin b) :
    multiReduction .add [2] ⟨2, ![a, b]⟩ src acc h hφ hacc (ix2 p q) = ∑ k : Fin c, src (ix3 p q k) := by
  refine (Ideal.multiReduction_add_single src acc h hφ hacc (ix2 p q)).trans ?_
  refine Finset.sum_congr rfl fun k _ => congrArg src (funext fun d => Fin.ext ?_)
  match d with
  | ⟨0, _⟩ => rfl
  | ⟨1, _⟩ => rfl
  | ⟨2, _⟩ => rfl

/-- The lane maximum of a rank-3 array at the exact extended reals: at `(p, q)` the fold of `max`, from the value of the
    starting pattern, over `k` of entry `(p, q, k)`. -/
theorem max_lane_apply {a b c : ℕ} (src : FVec Ideal ⟨3, ![a, b, c]⟩ .f32) (acc : BitVec 32)
    (h : (⟨3, ![a, b, c]⟩ : Shape).Reduces [2] ⟨2, ![a, b]⟩) (hφ : FKind.Formats .f32)
    (hacc : acc = FKind.maximumf.neutral .f32 hφ) (p : Fin a) (q : Fin b) :
    multiReduction .maximumf [2] ⟨2, ![a, b]⟩ src acc h hφ hacc (ix2 p q)
      = (Finset.univ : Finset (Fin c)).fold max (Ideal.ofBits .f32 acc) (fun k => src (ix3 p q k)) := by
  refine (Ideal.multiReduction_maximumf_single src acc h hφ hacc (ix2 p q)).trans ?_
  refine congrArg (Finset.fold max (Ideal.ofBits .f32 acc) · Finset.univ) (funext fun k => congrArg src (funext fun d => Fin.ext ?_))
  match d with
  | ⟨0, _⟩ => rfl
  | ⟨1, _⟩ => rfl
  | ⟨2, _⟩ => rfl

/-- The row sum of a rank-2 array at the exact extended reals: at `p` the sum over `k` of entry `(p, k)`. -/
theorem sum_row_apply {a b : ℕ} (src : FVec Ideal ⟨2, ![a, b]⟩ .f32) (acc : BitVec 32)
    (h : (⟨2, ![a, b]⟩ : Shape).Reduces [1] ⟨1, ![a]⟩) (hφ : FKind.Formats .f32)
    (hacc : acc = FKind.add.neutral .f32 hφ) (p : Fin a) :
    multiReduction .add [1] ⟨1, ![a]⟩ src acc h hφ hacc (ix1 p) = ∑ k : Fin b, src (ix2 p k) := by
  refine (Ideal.multiReduction_add_single src acc h hφ hacc (ix1 p)).trans ?_
  refine Finset.sum_congr rfl fun k _ => congrArg src (funext fun d => Fin.ext ?_)
  match d with
  | ⟨0, _⟩ => rfl
  | ⟨1, _⟩ => rfl

end Cert.LibRank3

end
-- ==== Proof.KernelChunk.lean ====
/-
  The kernel body's arithmetic at an index, at the exact extended reals.

  One grid point holds one batch element. The body first projects the `[32, 1024]` language block and the
  `[128, 2048]` region block onto the 256 ranks (two products against the rows of the weight matrices; the changes of
  float format around them are the identity here). It then treats the 32 language rows in four chunks of 8: for a chunk
  starting at row `o` it lays the 8 projected language rows and the 128 projected region rows out over
  `[8, 128, 256]` by broadcasting along a unit axis, multiplies entry by entry, flattens the `8 · 128` row pairs to 1024
  rows, contracts the rank axis against the output weights, adds the bias row, takes the maximum with zero and folds
  the 1024 rows back to `[8, 128, 256]`. Row pair `(c, q)` of a chunk sits at flat row `c * 128 + q`, so entry
  `(c, q, f)` of the chunk is
      `max (Σ_k (up (o + c, k) · vp (q, k)) · Wp (f, k) + bias (0, f)) 0`.
-/
import proofs.«122105_j35648228556885_2_alg».proof.Proof.Gen.KernelIdeal.Skeleton
import proofs.«122105_j35648228556885_2_alg».proof.Proof.LibMatmulNT
import proofs.«122105_j35648228556885_2_alg».proof.Proof.LibRowAxis
import proofs.«122105_j35648228556885_2_alg».proof.Proof.LibGroupsToRows
import proofs.«122105_j35648228556885_2_alg».proof.Proof.LibRank3Layout
import Idealize.ShloMosaic.Lib.ValueLayout
import Idealize.ShloMosaic.Lib.Pipeline.Value
import Idealize.ShloMosaic.PureOps.Ideal.Laws

noncomputable section

namespace Cert.KernelIdeal.Body

open Cert.KernelIdeal Cert.KernelIdeal.Gen
open Idealize.ShloMosaic Idealize.ShloMosaic.ValueIdx

/-! ## The two projections -/

/-- The language projection of the block: row `p` of the `[32, 1024]` language block against row `k` of the weights. -/
theorem langRows (v0 : Vec Ideal S1x32x1024 .f32) (v6 : Vec Ideal S256x1024 .bf16) (p : Fin 32) (k : Fin 256) :
    k0_pay4 (F := Ideal) v0 v6 (ix2 p k) = ∑ e : Fin 1024, v0 (ix3 (0 : Fin 1) p e) * v6 (ix2 k e) := by
  unfold k0_pay4
  rw [truncf_apply]
  refine (LibMatmulNT.matmul_zero_apply dot_S32x1024_S256x1024_S32x256_1_1_0_0_n_n_wf none _ _ p k).trans ?_
  refine Finset.sum_congr rfl fun e _ => ?_
  rw [truncf_apply, shapeCast_1ab_ab_apply, shapeCast_self]

/-- The region projection of the block: row `q` of the `[128, 2048]` region block against row `k` of the weights. -/
theorem regionRows (v3 : Vec Ideal S1x128x2048 .f32) (v8 : Vec Ideal S256x2048 .bf16) (q : Fin 128) (k : Fin 256) :
    k0_pay5 (F := Ideal) v3 v8 (ix2 q k) = ∑ e : Fin 2048, v3 (ix3 (0 : Fin 1) q e) * v8 (ix2 k e) := by
  unfold k0_pay5
  rw [truncf_apply]
  refine (LibMatmulNT.matmul_zero_apply dot_S128x2048_S256x2048_S128x256_1_1_0_0_n_n_wf none _ _ q k).trans ?_
  refine Finset.sum_congr rfl fun e _ => ?_
  rw [truncf_apply, shapeCast_1ab_ab_apply, shapeCast_self]

/-! ## One chunk of eight language rows -/

/-- The chunk of language rows `o … o + 7` against all region rows, as the body computes it from the output weights
    `wp`, the bias row `bias`, the projected language rows `up` and the projected region rows `vp`. -/
def chunk (o : ℕ) (hs : S32x256.Slices ![o, 0] S8x256) (wp : FVec Ideal S256x256 .bf16) (bias : FVec Ideal S1x256 .f32)
    (up : FVec Ideal S32x256 .bf16) (vp : FVec Ideal S128x256 .bf16) : FVec Ideal S8x128x256 .f32 :=
  shapeCast S8x128x256
    (maximumf
      (addf
        (matmul dot_S1024x256_S256x256_S1024x256_1_1_0_0_n_n none
          (shapeCast S1024x256
            (mulf
              (broadcastTo S8x128x256 (shapeCast S8x1x256 (extractStridedSlice S8x256 ![o, 0] up hs) shapeCasts_S8x256_S8x1x256)
                broadcasts_S8x1x256_S8x128x256)
              (broadcastTo S8x128x256 (shapeCast S1x128x256 vp shapeCasts_S128x256_S1x128x256) broadcasts_S1x128x256_S8x128x256))
            shapeCasts_S8x128x256_S1024x256)
          wp (constant S1024x256 .f32 0x00000000#32))
        (broadcastTo S1024x256 bias broadcasts_S1x256_S1024x256))
      (broadcast S1024x256 (Scalar.ofBits .f32 0x00000000#32)))
    shapeCasts_S1024x256_S8x128x256

/-- Entry `(c, q, f)` of a chunk. -/
theorem chunk_apply (o : ℕ) (hs : S32x256.Slices ![o, 0] S8x256) (wp : FVec Ideal S256x256 .bf16) (bias : FVec Ideal S1x256 .f32)
    (up : FVec Ideal S32x256 .bf16) (vp : FVec Ideal S128x256 .bf16) (c : Fin 8) (q : Fin 128) (f : Fin 256) :
    chunk o hs wp bias up vp (ix3 c q f)
      = max ((∑ k : Fin 256,
          (up (ix2 ⟨o + c.val, Nat.lt_of_lt_of_le (Nat.add_lt_add_left c.isLt o) (hs.2 0)⟩ k) * vp (ix2 q k)) * wp (ix2 f k))
        + bias (ix2 (0 : Fin 1) f)) 0 := by
  have hrow : c.val * 128 + q.val < 1024 := by have := c.isLt; have := q.isLt; omega
  unfold chunk
  refine (LibRank3.shapeCast_rows_apply _ _ c q f hrow).trans ?_
  rw [maximumf_apply, addf_apply, broadcast_apply, broadcastTo_1b_ab_apply]
  refine congrArg₂ max (congrArg (· + bias (ix2 (0 : Fin 1) f)) ?_) Ideal.ofBits_zero_f32
  refine (LibMatmulNT.matmul_zero_apply dot_S1024x256_S256x256_S1024x256_1_1_0_0_n_n_wf none _ _ ⟨c.val * 128 + q.val, hrow⟩ f).trans ?_
  refine Finset.sum_congr rfl fun k _ => ?_
  rw [Cert.Layout.shapeCast_groups_rows_apply _ _ c q k hrow, mulf_apply, LibRowAxis.broadcastTo_a1d_abd_apply,
    LibRowAxis.shapeCast_ad_a1d_apply, slice2_axis0_eq, LibRank3.broadcastTo_group_apply, shapeCast_ab_1ab_apply]

/-! ## The four stores' values are the four chunks -/

variable (v0 : Vec Ideal S1x32x1024 .f32) (v3 : Vec Ideal S1x128x2048 .f32) (v6 : Vec Ideal S256x1024 .bf16)
  (v8 : Vec Ideal S256x2048 .bf16) (v10 : Vec Ideal S256x256 .bf16) (v12 : Vec Ideal S1x256 .f32)

/-- The first store holds the chunk of rows 0–7, -/
theorem store0_eq : k0_pay6 (F := Ideal) v0 v3 v6 v8 v10 v12
    = shapeCast S1x8x128x256 (chunk 0 slices_S32x256_o0_0_S8x256 (k0_pay2 v10) (k0_pay3 v12) (k0_pay4 v0 v6) (k0_pay5 v3 v8))
        shapeCasts_S8x128x256_S1x8x128x256 := rfl

/-- the second the chunk of rows 8–15, -/
theorem store1_eq : k0_pay8 (F := Ideal) (k0_pay2 v10) (k0_pay3 v12) (k0_pay5 v3 v8) (k0_pay7 v0 v6)
    = shapeCast S1x8x128x256 (chunk 8 slices_S32x256_o8_0_S8x256 (k0_pay2 v10) (k0_pay3 v12) (k0_pay4 v0 v6) (k0_pay5 v3 v8))
        shapeCasts_S8x128x256_S1x8x128x256 := rfl

/-- the third the chunk of rows 16–23, -/
theorem store2_eq : k0_pay9 (F := Ideal) (k0_pay2 v10) (k0_pay3 v12) (k0_pay4 v0 v6) (k0_pay5 v3 v8)
    = shapeCast S1x8x128x256 (chunk 16 slices_S32x256_o16_0_S8x256 (k0_pay2 v10) (k0_pay3 v12) (k0_pay4 v0 v6) (k0_pay5 v3 v8))
        shapeCasts_S8x128x256_S1x8x128x256 := rfl

/-- and the fourth the chunk of rows 24–31. -/
theorem store3_eq : k0_pay1 (F := Ideal) (k0_pay10 (k0_pay2 v10) (k0_pay3 v12) (k0_pay4 v0 v6) (k0_pay5 v3 v8))
    = shapeCast S1x8x128x256 (chunk 24 slices_S32x256_o24_0_S8x256 (k0_pay2 v10) (k0_pay3 v12) (k0_pay4 v0 v6) (k0_pay5 v3 v8))
        shapeCasts_S8x128x256_S1x8x128x256 := rfl

/-- The loaded output weights and bias row pass through a cast to their own shape unchanged. -/
theorem weights_eq : k0_pay2 (F := Ideal) v10 = v10 := by unfold k0_pay2; exact shapeCast_self _ _
theorem bias_eq : k0_pay3 (F := Ideal) v12 = v12 := by unfold k0_pay3; exact shapeCast_self _ _

/-- Entry `(p, q, f)` of what one grid point computes from its six input blocks: the language block `x0`, the region
    block `x1`, the two projection weight matrices `x2`, `x3`, the output weights `x4` and the bias row `x5`. -/
def blockAt (x0 : Vec Ideal S1x32x1024 .f32) (x1 : Vec Ideal S1x128x2048 .f32) (x2 : Vec Ideal S256x1024 .bf16)
    (x3 : Vec Ideal S256x2048 .bf16) (x4 : Vec Ideal S256x256 .bf16) (x5 : Vec Ideal S1x256 .f32)
    (p : Fin 32) (q : Fin 128) (f : Fin 256) : EReal :=
  max ((∑ k : Fin 256,
      ((∑ e : Fin 1024, x0 (ix3 (0 : Fin 1) p e) * x2 (ix2 k e)) * (∑ e : Fin 2048, x1 (ix3 (0 : Fin 1) q e) * x3 (ix2 k e)))
        * x4 (ix2 f k))
    + x5 (ix2 (0 : Fin 1) f)) 0

/-- Entry `(0, c, q, f)` of a stored chunk starting at language row `o`, in terms of the loaded blocks. -/
theorem stored_apply (o : ℕ) (hs : S32x256.Slices ![o, 0] S8x256) (z : Fin 1) (c : Fin 8) (q : Fin 128) (f : Fin 256) :
    shapeCast S1x8x128x256 (chunk o hs (k0_pay2 v10) (k0_pay3 v12) (k0_pay4 v0 v6) (k0_pay5 v3 v8))
        shapeCasts_S8x128x256_S1x8x128x256 (ix4 z c q f)
      = blockAt v0 v3 v6 v8 v10 v12 ⟨o + c.val, Nat.lt_of_lt_of_le (Nat.add_lt_add_left c.isLt o) (hs.2 0)⟩ q f := by
  unfold blockAt
  rw [shapeCast_abc_1abc_apply, chunk_apply, weights_eq, bias_eq]
  simp only [langRows, regionRows]

end Cert.KernelIdeal.Body

end
-- ==== Proof.KernelBlock.lean ====
/-
  What one grid point leaves in its output block, entry by entry.

  The body fills its `[1, 32, 128, 256]` output block by four stores of `[1, 8, 128, 256]` pieces at language rows 0, 8,
  16 and 24. Entry `(0, c, q, f)` of the piece at row `o` is the chunk's entry `(c, q, f)`, which is the fused entry
  for language row `o + c`; and the piece's entry sits at block position `(0, o + c, q, f)`. So every piece is the
  restriction of one function of the block position, and the four pieces cover the block: the block after the body
  is that function.
-/
import proofs.«122105_j35648228556885_2_alg».proof.Proof.Gen.KernelIdeal.Frame
import proofs.«122105_j35648228556885_2_alg».proof.Proof.KernelChunk

noncomputable section

namespace Cert.KernelIdeal.Body

open Cert.KernelIdeal Cert.KernelIdeal.Gen
open Idealize.ShloMosaic Idealize.ShloMosaic.ValueIdx

theorem zeros2 : (![0, 0] : Fin 2 → ℕ) = fun _ => 0 := funext fun a => by fin_cases a <;> rfl
theorem zeros3 : (![0, 0, 0] : Fin 3 → ℕ) = fun _ => 0 := funext fun a => by fin_cases a <;> rfl

variable (x0 : Vec Ideal S1x32x1024 .f32) (x1 : Vec Ideal S1x128x2048 .f32) (x2 : Vec Ideal S256x1024 .bf16)
  (x3 : Vec Ideal S256x2048 .bf16) (x4 : Vec Ideal S256x256 .bf16) (x5 : Vec Ideal S1x256 .f32)

/-- The output block as one function of the block position `(0, p, q, f)`. -/
def blockFn : Vec Ideal S1x32x128x256 .f32 := fun y => blockAt x0 x1 x2 x3 x4 x5 (y 1) (y 2) (y 3)

/-- The piece stored at language row `o` is the restriction of `blockFn` to its rectangle. -/
theorem piece_eq (o : ℕ) (hs : S32x256.Slices ![o, 0] S8x256)
    (inb : ∀ a, (![0, o, 0, 0] : Fin 4 → ℕ) a + S1x8x128x256.size a ≤ S1x32x128x256.size a) (x : S1x8x128x256.Idx) :
    shapeCast S1x8x128x256 (chunk o hs (k0_pay2 x4) (k0_pay3 x5) (k0_pay4 x0 x2) (k0_pay5 x1 x3))
        shapeCasts_S8x128x256_S1x8x128x256 x
      = blockFn x0 x1 x2 x3 x4 x5 ((Rect.unit (s := S1x32x128x256) ![0, o, 0, 0] S1x8x128x256.size inb).emb x) := by
  obtain ⟨z, c, q, f, rfl⟩ : ∃ (z : Fin 1) (c : Fin 8) (q : Fin 128) (f : Fin 256), x = ix4 z c q f :=
    ⟨x 0, x 1, x 2, x 3, eq_ix4 x⟩
  rw [stored_apply]
  unfold blockFn
  refine congr (congr (congrArg (blockAt x0 x1 x2 x3 x4 x5) ?_) ?_) ?_
  · exact Fin.ext (by show o + c.val = o + 1 * c.val; omega)
  · exact Fin.ext (by show q.val = 0 + 1 * q.val; omega)
  · exact Fin.ext (by show f.val = 0 + 1 * f.val; omega)

/-- The block after the body is `blockFn` of the six input blocks. -/
theorem out_eq : out0_6 x0 x1 x2 x3 x4 x5 = blockFn x0 x1 x2 x3 x4 x5 := by
  funext y
  unfold out0_6
  simp only [View.ld_unit_zero (S := S1x32x1024) zeros3, View.ld_unit_zero (S := S1x128x2048) zeros3,
    View.ld_unit_zero (S := S256x1024) zeros2, View.ld_unit_zero (S := S256x2048) zeros2,
    View.ld_unit_zero (S := S256x256) zeros2, View.ld_unit_zero (S := S1x256) zeros2]
  rw [store0_eq, store1_eq, store2_eq, store3_eq]
  refine View.canon_apply_of_pieces (blockFn x0 x1 x2 x3 x4 x5) _ ?_ y (cover0_6 _ _ _ _ y)
  intro pc hpc x
  simp only [List.mem_cons, List.not_mem_nil, or_false] at hpc
  rcases hpc with rfl | rfl | rfl | rfl
  · exact piece_eq x0 x1 x2 x3 x4 x5 24 slices_S32x256_o24_0_S8x256 inb_S1x32x128x256_S1x8x128x256_0_24_0_0 x
  · exact piece_eq x0 x1 x2 x3 x4 x5 16 slices_S32x256_o16_0_S8x256 inb_S1x32x128x256_S1x8x128x256_0_16_0_0 x
  · exact piece_eq x0 x1 x2 x3 x4 x5 8 slices_S32x256_o8_0_S8x256 inb_S1x32x128x256_S1x8x128x256_0_8_0_0 x
  · exact piece_eq x0 x1 x2 x3 x4 x5 0 slices_S32x256_o0_0_S8x256 inb_S1x32x128x256_S1x8x128x256_0_0_0_0 x

end Cert.KernelIdeal.Body

end
-- ==== Proof.Spec.lean ====
/-
  The low-rank bilinear fusion as one function of its six argument arrays, entry by entry, over the extended reals.

  For a batch `b`, a language row `p`, a region row `q` and an output feature `f`:
    * the language projection  `up b p k = Σ_e u[b, p, e] · Wu[k, e]`   (e over the 1024 language features),
    * the region projection    `vp b q k = Σ_e v[b, q, e] · Wv[k, e]`   (e over the 2048 region features),
    * the fused entry          `max (Σ_k (up b p k · vp b q k) · Wp[f, k] + bp[f]) 0`   (k over the 256 ranks).
  Both programs compute exactly this expression, with the same grouping of every product and sum, so no law of the
  extended reals beyond the definitions is needed to identify them.
-/
import Idealize.ShloMosaic.PureOps.Ideal
import Idealize.ShloMosaic.Lib.ValueIdx

noncomputable section

namespace Cert.Fusion

open Idealize.ShloMosaic Idealize.ShloMosaic.ValueIdx

/-- Row `p` of a `[P, E]` matrix against row `k` of a `[R, E]` matrix. -/
def rowDot {P R E : ℕ} (x : (⟨2, ![P, E]⟩ : Shape).Idx → EReal) (w : (⟨2, ![R, E]⟩ : Shape).Idx → EReal)
    (p : Fin P) (k : Fin R) : EReal :=
  ∑ e : Fin E, x (ix2 p e) * w (ix2 k e)

/-- The fused entry from the two projected matrices of one batch element: `up : [P, R]`, `vp : [Q, R]`. -/
def fuse {P Q R Fo : ℕ} (up : Fin P → Fin R → EReal) (vp : Fin Q → Fin R → EReal)
    (wp : (⟨2, ![Fo, R]⟩ : Shape).Idx → EReal) (bias : Fin Fo → EReal) (p : Fin P) (q : Fin Q) (f : Fin Fo) : EReal :=
  max ((∑ k : Fin R, (up p k * vp q k) * wp (ix2 f k)) + bias f) 0

/-- The language projection of batch element `b`. -/
def langProj (u : (⟨3, ![32, 32, 1024]⟩ : Shape).Idx → EReal) (wu : (⟨2, ![256, 1024]⟩ : Shape).Idx → EReal)
    (b : Fin 32) (p : Fin 32) (k : Fin 256) : EReal :=
  ∑ e : Fin 1024, u (ix3 b p e) * wu (ix2 k e)

/-- The region projection of batch element `b`. -/
def regionProj (v : (⟨3, ![32, 128, 2048]⟩ : Shape).Idx → EReal) (wv : (⟨2, ![256, 2048]⟩ : Shape).Idx → EReal)
    (b : Fin 32) (q : Fin 128) (k : Fin 256) : EReal :=
  ∑ e : Fin 2048, v (ix3 b q e) * wv (ix2 k e)

/-- The whole result array `[32, 32, 128, 256]`, entry by entry. -/
def G (u : (⟨3, ![32, 32, 1024]⟩ : Shape).Idx → EReal) (v : (⟨3, ![32, 128, 2048]⟩ : Shape).Idx → EReal)
    (wu : (⟨2, ![256, 1024]⟩ : Shape).Idx → EReal) (wv : (⟨2, ![256, 2048]⟩ : Shape).Idx → EReal)
    (wp : (⟨2, ![256, 256]⟩ : Shape).Idx → EReal) (bp : (⟨1, ![256]⟩ : Shape).Idx → EReal) :
    (⟨4, ![32, 32, 128, 256]⟩ : Shape).Idx → EReal :=
  fun i => fuse (langProj u wu (i 0)) (regionProj v wv (i 0)) wp (fun f => bp (ix1 f)) (i 1) (i 2) (i 3)

theorem G_apply (u : (⟨3, ![32, 32, 1024]⟩ : Shape).Idx → EReal) (v : (⟨3, ![32, 128, 2048]⟩ : Shape).Idx → EReal)
    (wu : (⟨2, ![256, 1024]⟩ : Shape).Idx → EReal) (wv : (⟨2, ![256, 2048]⟩ : Shape).Idx → EReal)
    (wp : (⟨2, ![256, 256]⟩ : Shape).Idx → EReal) (bp : (⟨1, ![256]⟩ : Shape).Idx → EReal)
    (b : Fin 32) (p : Fin 32) (q : Fin 128) (f : Fin 256) :
    G u v wu wv wp bp (ix4 b p q f)
      = max ((∑ k : Fin 256, (langProj u wu b p k * regionProj v wv b q k) * wp (ix2 f k)) + bp (ix1 f)) 0 := rfl

end Cert.Fusion

end
-- ==== Proof.KernelArray.lean ====
/-
  The kernel's result array after the run is the fused function of the argument arrays.

  Grid point `t` works on batch element `t`: its language and region blocks are rows `t` of `u` and `v`, the three weight
  windows and the bias window hold their whole arrays at every point, and its output block is row `t` of the result.
  The weights reach the region through a change of float format and the bias through a reshape `[256] → [1, 256]`,
  both of which keep every entry. So the block point `t` writes back is block `t` of `Cert.Fusion.G` of the arguments,
  and the 32 blocks cover the result array.
-/
import proofs.«122105_j35648228556885_2_alg».proof.Proof.Gen.KernelIdeal.Value
import proofs.«122105_j35648228556885_2_alg».proof.Proof.KernelBlock
import proofs.«122105_j35648228556885_2_alg».proof.Proof.Spec
import Idealize.ShloMosaic.Lib.StableHlo.Run
import Idealize.ShloMosaic.Lib.ValueLayout

noncomputable section

namespace Cert.KernelIdeal.Whole

open Cert.KernelIdeal Cert.KernelIdeal.Gen Cert.KernelIdeal.Body
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The grid point as a batch index. -/
abbrev batchOf (t : Fin cfg0.N) : Fin 32 := t.cast N_0

/-- The printed index maps over the grid: the language, region and output windows move along the batch axis with the
    point; the weight and bias windows stay at block zero. -/
theorem idx_facts : ∀ t : Fin cfg0.N,
    (win0_0.index t (0 : Fin 3) = t.val ∧ win0_0.index t (1 : Fin 3) = 0 ∧ win0_0.index t (2 : Fin 3) = 0)
    ∧ (win0_1.index t (0 : Fin 3) = t.val ∧ win0_1.index t (1 : Fin 3) = 0 ∧ win0_1.index t (2 : Fin 3) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 4) = t.val ∧ win0_6.index t (1 : Fin 4) = 0 ∧ win0_6.index t (2 : Fin 4) = 0
      ∧ win0_6.index t (3 : Fin 4) = 0) :=
  (by decide +kernel : ∀ t : Fin grid0.N, _)

/-! ## The arrays the host operations wrote before the region -/

/-- The language weights reach the region unchanged (a change of float format is the identity). -/
theorem V_wu (c : Dev nD) : (V m c main_v0 : S256x1024.Idx → EReal) = m ((c : Thread nD τ).loc main_arg2) := by
  dsimp only [Gen.V, Gen.hostOps0]; after_results; rfl

/-- So do the region weights -/
theorem V_wv (c : Dev nD) : (V m c main_v1 : S256x2048.Idx → EReal) = m ((c : Thread nD τ).loc main_arg3) := by
  dsimp only [Gen.V, Gen.hostOps0]; after_results; rfl

/-- and the output weights. -/
theorem V_wp (c : Dev nD) : (V m c main_v2 : S256x256.Idx → EReal) = m ((c : Thread nD τ).loc main_arg4) := by
  dsimp only [Gen.V, Gen.hostOps0]; after_results; rfl

/-- The bias reaches the region as a `[1, 256]` row. -/
theorem V_bias (c : Dev nD) : (V m c main_v3 : S1x256.Idx → EReal)
    = shapeCast S1x256 (m ((c : Thread nD τ).loc main_arg5) : S256.Idx → EReal) shapeCasts_S256_S1x256 := by
  dsimp only [Gen.V, Gen.hostOps0]; after_results; rfl

/-! ## The input blocks at a point -/

/-- The language block at point `t` is row `t` of `u`. -/
theorem lang_blk (c : Dev nD) (t : Fin cfg0.N) (z : Fin 1) (p : Fin 32) (e : Fin 1024) :
    (iblk m c 0 t : Vec Ideal S1x32x1024 .f32) (ix3 z p e)
      = (m ((c : Thread nD τ).loc main_arg0) : S32x32x1024.Idx → EReal) (ix3 (batchOf t) p e) := by
  obtain ⟨⟨h0, h1, h2⟩, -⟩ := idx_facts t
  unfold iblk
  rw [View.read_apply]
  show V m c main_arg0 _ = m (c.tc.loc main_arg0) _
  rw [V_main_arg0]
  congr 1
  funext a
  apply Fin.ext
  have hz : z.val = 0 := by have := z.isLt; omega
  match a with
  | ⟨0, _⟩ => show win0_0.index t 0 * 1 + 1 * z.val = t.val; rw [h0, hz]; omega
  | ⟨1, _⟩ => show win0_0.index t 1 * 32 + 1 * p.val = p.val; rw [h1]; omega
  | ⟨2, _⟩ => show win0_0.index t 2 * 1024 + 1 * e.val = e.val; rw [h2]; omega

/-- The region block at point `t` is row `t` of `v`. -/
theorem region_blk (c : Dev nD) (t : Fin cfg0.N) (z : Fin 1) (q : Fin 128) (e : Fin 2048) :
    (iblk m c 1 t : Vec Ideal S1x128x2048 .f32) (ix3 z q e)
      = (m ((c : Thread nD τ).loc main_arg1) : S32x128x2048.Idx → EReal) (ix3 (batchOf t) q e) := by
  obtain ⟨-, ⟨h0, h1, h2⟩, -⟩ := idx_facts t
  unfold iblk
  rw [View.read_apply]
  show V m c main_arg1 _ = m (c.tc.loc main_arg1) _
  rw [V_main_arg1]
  congr 1
  funext a
  apply Fin.ext
  have hz : z.val = 0 := by have := z.isLt; omega
  match a with
  | ⟨0, _⟩ => show win0_1.index t 0 * 1 + 1 * z.val = t.val; rw [h0, hz]; omega
  | ⟨1, _⟩ => show win0_1.index t 1 * 128 + 1 * q.val = q.val; rw [h1]; omega
  | ⟨2, _⟩ => show win0_1.index t 2 * 2048 + 1 * e.val = e.val; rw [h2]; omega

/-- The language weights' block at every point is the whole argument, -/
theorem wu_blk (c : Dev nD) (t : Fin cfg0.N) (k : Fin 256) (e : Fin 1024) :
    (iblk m c 2 t : Vec Ideal S256x1024 .bf16) (ix2 k e)
      = (m ((c : Thread nD τ).loc main_arg2) : S256x1024.Idx → EReal) (ix2 k e) := by
  obtain ⟨-, -, ⟨h0, h1⟩, -⟩ := idx_facts t
  unfold iblk
  rw [View.read_apply]
  show V m c main_v0 _ = m (c.tc.loc main_arg2) _
  rw [V_wu]
  congr 1
  funext a
  apply Fin.ext
  match a with
  | ⟨0, _⟩ => show win0_2.index t 0 * 256 + 1 * k.val = k.val; rw [h0]; omega
  | ⟨1, _⟩ => show win0_2.index t 1 * 1024 + 1 * e.val = e.val; rw [h1]; omega

/-- so is the region weights' -/
theorem wv_blk (c : Dev nD) (t : Fin cfg0.N) (k : Fin 256) (e : Fin 2048) :
    (iblk m c 3 t : Vec Ideal S256x2048 .bf16) (ix2 k e)
      = (m ((c : Thread nD τ).loc main_arg3) : S256x2048.Idx → EReal) (ix2 k e) := by
  obtain ⟨-, -, -, ⟨h0, h1⟩, -⟩ := idx_facts t
  unfold iblk
  rw [View.read_apply]
  show V m c main_v1 _ = m (c.tc.loc main_arg3) _
  rw [V_wv]
  congr 1
  funext a
  apply Fin.ext
  match a with
  | ⟨0, _⟩ => show win0_3.index t 0 * 256 + 1 * k.val = k.val; rw [h0]; omega
  | ⟨1, _⟩ => show win0_3.index t 1 * 2048 + 1 * e.val = e.val; rw [h1]; omega

/-- and the output weights'. -/
theorem wp_blk (c : Dev nD) (t : Fin cfg0.N) (f : Fin 256) (k : Fin 256) :
    (iblk m c 4 t : Vec Ideal S256x256 .bf16) (ix2 f k)
      = (m ((c : Thread nD τ).loc main_arg4) : S256x256.Idx → EReal) (ix2 f k) := by
  obtain ⟨-, -, -, -, ⟨h0, h1⟩, -⟩ := idx_facts t
  unfold iblk
  rw [View.read_apply]
  show V m c main_v2 _ = m (c.tc.loc main_arg4) _
  rw [V_wp]
  congr 1
  funext a
  apply Fin.ext
  match a with
  | ⟨0, _⟩ => show win0_4.index t 0 * 256 + 1 * f.val = f.val; rw [h0]; omega
  | ⟨1, _⟩ => show win0_4.index t 1 * 256 + 1 * k.val = k.val; rw [h1]; omega

/-- The bias block at every point is the bias vector as a row. -/
theorem bias_blk (c : Dev nD) (t : Fin cfg0.N) (z : Fin 1) (f : Fin 256) :
    (iblk m c 5 t : Vec Ideal S1x256 .f32) (ix2 z f)
      = (m ((c : Thread nD τ).loc main_arg5) : S256.Idx → EReal) (ix1 f) := by
  obtain ⟨-, -, -, -, -, ⟨h0, h1⟩, -⟩ := idx_facts t
  unfold iblk
  rw [View.read_apply]
  show V m c main_v3 _ = m (c.tc.loc main_arg5) _
  rw [V_bias]
  have hidx : ((cfg0.win 5).blk t).view.emb (ix2 z f) = (ix2 z f : S1x256.Idx) := by
    funext a
    apply Fin.ext
    match a with
    | ⟨0, _⟩ => show win0_5.index t 0 * 1 + 1 * z.val = z.val; rw [h0]; omega
    | ⟨1, _⟩ => show win0_5.index t 1 * 256 + 1 * f.val = f.val; rw [h1]; omega
  exact (congrArg _ hidx).trans (shapeCast_a_1a_apply _ _ z f)

/-! ## The block a point writes back, the cover, the array -/

/-- The fused function of the argument arrays as launched. -/
abbrev Gm (c : Dev nD) : Buf (Elt Ideal) ((c : Thread nD τ).loc main_v4) :=
  Cert.Fusion.G (m ((c : Thread nD τ).loc main_arg0)) (m ((c : Thread nD τ).loc main_arg1))
    (m ((c : Thread nD τ).loc main_arg2)) (m ((c : Thread nD τ).loc main_arg3))
    (m ((c : Thread nD τ).loc main_arg4)) (m ((c : Thread nD τ).loc main_arg5))

/-- What point `t` writes back is block `t` of the fused function. -/
theorem flushed_eq (c : Dev nD) (t : Fin cfg0.N) :
    (dats m 0 c).flushed 6 t = ((cfg0.win 6).blk t).view.read (Elt Ideal) (Gm m c) := by
  obtain ⟨-, -, -, -, -, -, ⟨h0, h1, h2, h3⟩⟩ := idx_facts t
  rw [Cert.KernelIdeal.Value.flushed6, out_eq]
  funext j
  obtain ⟨z, p, q, f, rfl⟩ : ∃ (z : Fin 1) (p : Fin 32) (q : Fin 128) (f : Fin 256), j = ix4 z p q f :=
    ⟨j 0, j 1, j 2, j 3, eq_ix4 j⟩
  have hz : z.val = 0 := by have := z.isLt; omega
  have hemb : ((cfg0.win 6).blk t).view.emb (ix4 z p q f) = (ix4 (batchOf t) p q f : S32x32x128x256.Idx) := by
    funext a
    apply Fin.ext
    match a with
    | ⟨0, _⟩ => show win0_6.index t 0 * 1 + 1 * z.val = t.val; rw [h0, hz]; omega
    | ⟨1, _⟩ => show win0_6.index t 1 * 32 + 1 * p.val = p.val; rw [h1]; omega
    | ⟨2, _⟩ => show win0_6.index t 2 * 128 + 1 * q.val = q.val; rw [h2]; omega
    | ⟨3, _⟩ => show win0_6.index t 3 * 256 + 1 * f.val = f.val; rw [h3]; omega
  rw [View.read_apply]
  show blockAt (iblk m c 0 t) (iblk m c 1 t) (iblk m c 2 t) (iblk m c 3 t) (iblk m c 4 t) (iblk m c 5 t) p q f
    = Gm m c (((cfg0.win 6).blk t).view.emb (ix4 z p q f))
  rw [hemb]
  show _ = Cert.Fusion.G _ _ _ _ _ _ (ix4 (batchOf t) p q f)
  rw [Cert.Fusion.G_apply]
  unfold blockAt Cert.Fusion.langProj Cert.Fusion.regionProj
  simp only [lang_blk, region_blk, wu_blk, wv_blk, wp_blk, bias_blk]

/-- An index of the result array is in point `t`'s block iff each coordinate is in the block's range on its axis. -/
theorem mem_blk (t : Fin cfg0.N) (i : S32x32x128x256.Idx) :
    i ∈ ((cfg0.win 6).blk t).view.set ↔ ∀ a : Fin 4, win0_6.index t a * S1x32x128x256.size a ≤ (i a).val
      ∧ (i a).val < win0_6.index t a * S1x32x128x256.size a + S1x32x128x256.size a := by
  show i ∈ ((View.whole main_v4).slice (win0_6.rect t)).set ↔ _
  rw [View.set_slice_whole, Rect.mem_set_unit]
  exact Iff.rfl

/-- Every index of the result array is in the block of the point its batch coordinate names. -/
theorem cover (i : S32x32x128x256.Idx) :
    ∃ t : Fin cfg0.N, (cfg0.win 6).flush t = true ∧ i ∈ ((cfg0.win 6).blk t).view.set := by
  have hi0 : (i 0).val < 32 := (i 0).isLt
  have hi1 : (i 1).val < 32 := (i 1).isLt
  have hi2 : (i 2).val < 128 := (i 2).isLt
  have hi3 : (i 3).val < 256 := (i 3).isLt
  let t : Fin cfg0.N := (⟨(i 0).val, hi0⟩ : Fin 32).cast N_0.symm
  obtain ⟨-, -, -, -, -, -, ⟨h0, h1, h2, h3⟩⟩ := idx_facts t
  refine ⟨t, flush0_6 t, ?_⟩
  rw [mem_blk]
  intro a
  match a with
  | ⟨0, _⟩ =>
    show win0_6.index t 0 * 1 ≤ (i 0).val ∧ (i 0).val < win0_6.index t 0 * 1 + 1
    rw [h0]; show (i 0).val * 1 ≤ (i 0).val ∧ (i 0).val < (i 0).val * 1 + 1; omega
  | ⟨1, _⟩ => show win0_6.index t 1 * 32 ≤ (i 1).val ∧ (i 1).val < win0_6.index t 1 * 32 + 32; rw [h1]; omega
  | ⟨2, _⟩ => show win0_6.index t 2 * 128 ≤ (i 2).val ∧ (i 2).val < win0_6.index t 2 * 128 + 128; rw [h2]; omega
  | ⟨3, _⟩ => show win0_6.index t 3 * 256 ≤ (i 3).val ∧ (i 3).val < win0_6.index t 3 * 256 + 256; rw [h3]; omega

/-- The result array after the run is the fused function of the arguments. -/
theorem final (c : Dev nD) : (dats m 0 c).arrAt 6 cfg0.N = Gm m c :=
  (dats m 0 c).arrAt_eq_of_cover 6 (Gm m c) (fun t _ => flushed_eq m c t) cover

/-- The kernel's run, read: the result array at the fused function of the arguments, the arguments unchanged. -/
theorem run : θ_run defs (onTc (τ := τ) (main (F := Ideal))) ⟨m, fun _ => 0, ρ⟩ fun r => ∀ c : Dev nD,
      r.2.mem ((c : Thread nD τ).loc main_v4) = Gm m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun _ h c => ⟨(h c).1.trans (final m c), (h c).2⟩)
    (Cert.KernelIdeal.Value.run_blocks m ρ)

end Cert.KernelIdeal.Whole

end
-- ==== Proof.RefIsSpec.lean ====
/-
  The reference computes the fused function: its last stage, read at an index, is `Cert.Fusion.G` of the argument arrays.

  The reference projects the language and region features by two contractions over the feature axis, lays both
  projections out over the common `[batch, language row, region row, rank]` index space by inserting a unit axis and
  broadcasting along it, multiplies them entry by entry, contracts the rank axis against the output weights, adds the
  bias broadcast along the three leading axes, and takes the maximum with zero. Reading each stage at an index and
  naming the operand indices by their coordinates gives the specification's expression literally.
-/
import proofs.«122105_j35648228556885_2_alg».proof.Proof.Gen.ReferenceIdeal.Read
import proofs.«122105_j35648228556885_2_alg».proof.Proof.Spec

noncomputable section

namespace Cert.ReferenceIdeal.RefValue

open Cert.ReferenceIdeal Cert.ReferenceIdeal.Gen Cert.ReferenceIdeal.Read
open Idealize.ShloMosaic Idealize.ShloMosaic.ValueIdx

/-! ## The operand indices of each stage, by coordinates -/

section Indices
variable (b : Fin 32) (p : Fin 32) (q : Fin 128) (f : Fin 256) (k : Fin 256)

/-- Rank `k` of the product at `(b, p, q, ·)` reads the language projection at `(b, p, k)`, whose `e`-th term reads `u` at `(b, p, e)`; -/
theorem idx_u (e : Fin 1024) :
    lidx_main_v0 (idx_main_v2 (idx_main_v4 (lidx_main_v7 (ix4 b p q f) k))) e = ix3 b p e :=
  funext fun a => Fin.ext (by match a with | ⟨0, _⟩ => rfl | ⟨1, _⟩ => rfl | ⟨2, _⟩ => rfl)

/-- and the language weights at `(k, e)`. -/
theorem idx_wu (e : Fin 1024) :
    ridx_main_v0 (idx_main_v2 (idx_main_v4 (lidx_main_v7 (ix4 b p q f) k))) e = ix2 k e :=
  funext fun a => Fin.ext (by match a with | ⟨0, _⟩ => rfl | ⟨1, _⟩ => rfl)

/-- It reads the region projection at `(b, q, k)`, whose `e`-th term reads `v` at `(b, q, e)`; -/
theorem idx_v (e : Fin 2048) :
    lidx_main_v1 (idx_main_v3 (idx_main_v5 (lidx_main_v7 (ix4 b p q f) k))) e = ix3 b q e :=
  funext fun a => Fin.ext (by match a with | ⟨0, _⟩ => rfl | ⟨1, _⟩ => rfl | ⟨2, _⟩ => rfl)

/-- and the region weights at `(k, e)`. -/
theorem idx_wv (e : Fin 2048) :
    ridx_main_v1 (idx_main_v3 (idx_main_v5 (lidx_main_v7 (ix4 b p q f) k))) e = ix2 k e :=
  funext fun a => Fin.ext (by match a with | ⟨0, _⟩ => rfl | ⟨1, _⟩ => rfl)

/-- The output weights are read at `(f, k)`. -/
theorem idx_wp : ridx_main_v7 (ix4 b p q f) k = ix2 f k :=
  funext fun a => Fin.ext (by match a with | ⟨0, _⟩ => rfl | ⟨1, _⟩ => rfl)

/-- The bias is read at `f`. -/
theorem idx_bp : idx_main_v8 (idx_main_v9 (ix4 b p q f)) = ix1 f :=
  funext fun a => Fin.ext (by match a with | ⟨0, _⟩ => rfl)

end Indices

/-! ## The last stage is the specification -/

/-- The reference's result, as a function of the six argument arrays, is the fused function entry by entry. -/
theorem ref_eq_G (x0 : (⟨S32x32x1024, .f32⟩ : BufTy).Contents (Elt Ideal)) (x1 : (⟨S32x128x2048, .f32⟩ : BufTy).Contents (Elt Ideal))
    (x2 : (⟨S256x1024, .f32⟩ : BufTy).Contents (Elt Ideal)) (x3 : (⟨S256x2048, .f32⟩ : BufTy).Contents (Elt Ideal))
    (x4 : (⟨S256x256, .f32⟩ : BufTy).Contents (Elt Ideal)) (x5 : (⟨S256, .f32⟩ : BufTy).Contents (Elt Ideal)) :
    val_main_v11 (F := Ideal) x0 x1 x2 x3 x4 x5 = Cert.Fusion.G x0 x1 x2 x3 x4 x5 := by
  funext i
  obtain ⟨b, p, q, f, rfl⟩ : ∃ (b : Fin 32) (p : Fin 32) (q : Fin 128) (f : Fin 256), i = ix4 b p q f :=
    ⟨i 0, i 1, i 2, i 3, eq_ix4 i⟩
  rw [val_main_v11_apply, val_main_v10_apply, val_main_v7_apply, val_main_v9_apply, val_main_v8_apply,
    val_main_call0_v0_apply, val_main_call0_cst_apply, Cert.Fusion.G_apply]
  simp only [val_main_v6_apply, val_main_v4_apply, val_main_v2_apply, val_main_v0_apply, val_main_v5_apply,
    val_main_v3_apply, val_main_v1_apply, idx_u, idx_wu, idx_v, idx_wv, idx_wp, idx_bp, Ideal.maximumf_def,
    Ideal.addf_def, Ideal.mulf_def, Ideal.ofBits_def, Ideal.ofBits_zero_f32]
  rfl

end Cert.ReferenceIdeal.RefValue

end
-- ==== Proof.lean ====
/-
  The certificate of the low-rank bilinear fusion kernel against its jnp reference, over the extended reals.

  For a batch `b`, a language row `p`, a region row `q` and an output feature `f` both programs compute
      `max (Σ_k (up b p k · vp b q k) · Wp[f, k] + bp[f]) 0`,
  where `up b p k = Σ_e u[b, p, e] · Wu[k, e]` and `vp b q k = Σ_e v[b, q, e] · Wv[k, e]` (`Cert.Fusion.G`, Proof/Spec.lean).

  The reference does it on whole arrays: two contractions, two broadcasts to the common index space, a product, a third
  contraction, the bias, the maximum with zero (Proof/RefIsSpec.lean reads its stages at an index).

  The kernel does it one batch element per grid point, in four chunks of eight language rows, with the weights passed
  through a change of float format and the bias through a reshape, all of which keep every entry at the exact
  instance (Proof/KernelChunk.lean: the body's arithmetic at an index; Proof/KernelBlock.lean: the four stored pieces
  are one function of the block position; Proof/KernelArray.lean: the 32 blocks are the 32 batch rows of the result).

  Every product and sum is grouped the same way on both sides, so the two results are equal term by term and the
  precondition (finite inputs) is not used by the value claim. No operation of the kernel is rewritten for its reading
  at the exact instance, so the preservation claim has no conjunct.
-/
import proofs.«122105_j35648228556885_2_alg».proof.Defs
import proofs.«122105_j35648228556885_2_alg».proof.Proof.Gen.Kernel
import proofs.«122105_j35648228556885_2_alg».proof.Proof.Gen.Kernel.Skeleton
import proofs.«122105_j35648228556885_2_alg».proof.Proof.Gen.Kernel.Launch
import proofs.«122105_j35648228556885_2_alg».proof.Proof.Gen.Kernel.Points
import proofs.«122105_j35648228556885_2_alg».proof.Proof.Gen.Kernel.Frame
import proofs.«122105_j35648228556885_2_alg».proof.Proof.Gen.KernelIdeal
import proofs.«122105_j35648228556885_2_alg».proof.Proof.Gen.KernelIdeal.Skeleton
import proofs.«122105_j35648228556885_2_alg».proof.Proof.Gen.KernelIdeal.Launch
import proofs.«122105_j35648228556885_2_alg».proof.Proof.Gen.KernelIdeal.Points
import proofs.«122105_j35648228556885_2_alg».proof.Proof.Gen.KernelIdeal.Frame
import proofs.«122105_j35648228556885_2_alg».proof.Proof.Gen.ReferenceIdeal
import proofs.«122105_j35648228556885_2_alg».proof.Proof.Gen.Pre_finite_inputs
import proofs.«122105_j35648228556885_2_alg».proof.Proof.Gen.KernelIdeal.Value
import proofs.«122105_j35648228556885_2_alg».proof.Proof.Gen.ReferenceIdeal.Run
import proofs.«122105_j35648228556885_2_alg».proof.Proof.Gen.ReferenceIdeal.Read
import proofs.«122105_j35648228556885_2_alg».proof.Proof.KernelArray
import proofs.«122105_j35648228556885_2_alg».proof.Proof.RefIsSpec
import Idealize.ShloMosaic.Adequacy
import Idealize.ShloMosaic.Init

noncomputable section

namespace Cert.Proof

open Idealize.ShloMosaic Idealize.SL.Sem

/-- The word-level kernel runs and leaves its arguments as launched. -/
theorem frame_kernel : Cert.frame_Kernel := fun m ρ _ => Cert.Kernel.Gen.frame m ρ

/-- So does the kernel read at the exact instance. -/
theorem frame_kernelIdeal : Cert.frame_KernelIdeal := fun m ρ _ => Cert.KernelIdeal.Gen.frame m ρ

/-- The reference runs and leaves its arguments as launched: its run with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation of the kernel was rewritten for the exact reading: nothing to preserve. -/
theorem preserves : Cert.preserves_Kernel_KernelIdeal := trivial

/-- From memories that agree on the six arguments, the kernel's result array and the reference's both end at the fused
    function `Cert.Fusion.G` of the arguments. -/
theorem algebraic : Cert.algebraic_KernelIdeal_ReferenceIdeal := by
  intro m ρ m' ρ' _ hagree
  refine ⟨fun c => Cert.KernelIdeal.Whole.Gm m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v11_eq, Cert.ReferenceIdeal.RefValue.ref_eq_G, (hagree c).1, (hagree c).2.1,
    (hagree c).2.2.1, (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
